-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x256 .f32) (main_arg6 : FVec F S64 .f32) (main_arg7 : FVec F S64x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S64x256 .f32 := Host.absf main_arg5
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x256 .f32 := Host.absf main_arg7
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S256x128 .f32) (main_arg3 : FVec F S256 .f32) (main_arg4 : FVec F S256x128 .f32) (main_arg5 : FVec F S64x256 .f32) (main_arg6 : FVec F S64 .f32) (main_arg7 : FVec F S64x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S100000x1 : Shape := ⟨2, ![100000, 1]⟩
abbrev S640000x128 : Shape := ⟨2, ![640000, 128]⟩
abbrev S128x256 : Shape := ⟨2, ![128, 256]⟩
abbrev S1x256 : Shape := ⟨2, ![1, 256]⟩
abbrev S100000x256 : Shape := ⟨2, ![100000, 256]⟩
abbrev S4000x128 : Shape := ⟨2, ![4000, 128]⟩
abbrev S4000x1 : Shape := ⟨2, ![4000, 1]⟩
abbrev S4000x256 : Shape := ⟨2, ![4000, 256]⟩
abbrev S640000x256 : Shape := ⟨2, ![640000, 256]⟩
abbrev S128 : Shape := ⟨1, ![128]⟩
abbrev S1x128 : Shape := ⟨2, ![1, 128]⟩
abbrev S100000x64 : Shape := ⟨2, ![100000, 64]⟩

abbrev nBuf : Space → Nat
  | .hbm => 69
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S64x256, .f32⟩
  | .hbm, ⟨6, _⟩ => ⟨S64, .f32⟩
  | .hbm, ⟨7, _⟩ => ⟨S64x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000x1, .f32⟩
  | .hbm, ⟨14, _⟩ => ⟨S_, .f32⟩
  | .hbm, ⟨15, _⟩ => ⟨S100000x1, .f32⟩
  | .hbm, ⟨16, _⟩ => ⟨S640000x1, .i32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .f32⟩
  | .hbm, ⟨34, _⟩ => ⟨S100000x128, .f32⟩
  | .hbm, ⟨35, _⟩ => ⟨S640000x1, .i32⟩
  | .hbm, ⟨36, _⟩ => ⟨S100000x128, .f32⟩
  | .hbm, ⟨37, _⟩ => ⟨S128x256, .f32⟩
  | .hbm, ⟨38, _⟩ => ⟨S128x256, .f32⟩
  | .hbm, ⟨39, _⟩ => ⟨S1x256, .f32⟩
  | .hbm, ⟨40, _⟩ => ⟨S100000x256, .bf16⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x256, .bf16⟩
  | .hbm, ⟨50, _⟩ => ⟨S640000x256, .f32⟩
  | .hbm, ⟨51, _⟩ => ⟨S_, .f32⟩
  | .hbm, ⟨52, _⟩ => ⟨S100000x256, .f32⟩
  | .hbm, ⟨53, _⟩ => ⟨S640000x1, .i32⟩
  | .hbm, ⟨54, _⟩ => ⟨S100000x256, .f32⟩
  | .hbm, ⟨55, _⟩ => ⟨S_, .i32⟩
  | .hbm, ⟨56, _⟩ => ⟨S_, .f32⟩
  | .hbm, ⟨57, _⟩ => ⟨S128x256, .f32⟩
  | .hbm, ⟨58, _⟩ => ⟨S_, .i32⟩
  | .hbm, ⟨59, _⟩ => ⟨S_, .f32⟩
  | .hbm, ⟨60, _⟩ => ⟨S128x256, .f32⟩
  | .hbm, ⟨61, _⟩ => ⟨S_, .i32⟩
  | .hbm, ⟨62, _⟩ => ⟨S_, .f32⟩
  | .hbm, ⟨63, _⟩ => ⟨S128, .f32⟩
  | .hbm, ⟨64, _⟩ => ⟨S256x128, .f32⟩
  | .hbm, ⟨65, _⟩ => ⟨S256x128, .f32⟩
  | .hbm, ⟨66, _⟩ => ⟨S1x128, .f32⟩
  | .hbm, ⟨67, _⟩ => ⟨S100000x128, .f32⟩
  | .hbm, ⟨68, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S4000x256, .bf16⟩
  | .local _ .vmem, ⟨10, _⟩ => ⟨S4000x256, .bf16⟩
  | .local _ .vmem, ⟨11, _⟩ => ⟨S4000x256, .f32⟩
  | .local _ .vmem, ⟨12, _⟩ => ⟨S4000x256, .f32⟩
  | .local _ .vmem, ⟨13, _⟩ => ⟨S4000x1, .f32⟩
  | .local _ .vmem, ⟨14, _⟩ => ⟨S4000x1, .f32⟩
  | .local _ .vmem, ⟨15, _⟩ => ⟨S4000x256, .bf16⟩
  | .local _ .vmem, ⟨16, _⟩ => ⟨S4000x256, .bf16⟩
  | .local _ .vmem, ⟨17, _⟩ => ⟨S256x128, .f32⟩
  | .local _ .vmem, ⟨18, _⟩ => ⟨S256x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_call0_v0 : Ref sig .tc := ⟨.hbm, 56, rfl⟩
abbrev main_v37 : Ref sig .tc := ⟨.hbm, 57, rfl⟩
abbrev main_c_9 : Ref sig .tc := ⟨.hbm, 58, rfl⟩
abbrev main_call1_v0 : Ref sig .tc := ⟨.hbm, 59, rfl⟩
abbrev main_v38 : Ref sig .tc := ⟨.hbm, 60, rfl⟩
abbrev main_c_10 : Ref sig .tc := ⟨.hbm, 61, rfl⟩
abbrev main_call2_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000x1 : S_.BroadcastsInDim S640000x1 (![] : Fin 0 → Fin S640000x1.rank)
  bcast_S_S100000x1 : S_.BroadcastsInDim S100000x1 (![] : Fin 0 → Fin S100000x1.rank)
  bcast_S640000_S640000x1_0 : S640000.BroadcastsInDim S640000x1 (![0] : Fin 1 → Fin S640000x1.rank)
  bcast_S_S640000 : S_.BroadcastsInDim S640000 (![] : Fin 0 → Fin S640000.rank)
  bcast_S_S100000x128 : S_.BroadcastsInDim S100000x128 (![] : Fin 0 → Fin S100000x128.rank)
  transposes_S256x128_S128x256_1_0 : S256x128.Transposes [1, 0] S128x256
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  packedbf16_S4000x256_S4000x256_0_0 : (Rect.unit (s := S4000x256) ![0, 0] S4000x256.size inb_S4000x256_S4000x256_0_0).PackedRows (EltTy.packing .bf16)
  bcast_S_S100000x256 : S_.BroadcastsInDim S100000x256 (![] : Fin 0 → Fin S100000x256.rank)
  pads_S64x256_S128x256_0640_000 : S64x256.Pads (![0, 0] : Fin 2 → Nat) ![64, 0] ![0, 0] S128x256
  h_S_ : 0 < S_.numel
  pads_S64_S128_0640 : S64.Pads (![0] : Fin 1 → Nat) ![64] ![0] S128
  transposes_S128x256_S256x128_1_0 : S128x256.Transposes [1, 0] S256x128
  shapeCasts_S128_S1x128 : S128.ShapeCasts S1x128
  shapeCasts_S4000x256_S4000x256 : S4000x256.ShapeCasts S4000x256
  broadcasts_S4000x1_S4000x256 : S4000x1.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S100000x128_S100000x64_0_0 : S100000x128.Slices ![0, 0] S100000x64
  scatter_S100000x1_S640000x1_S640000x1_1_0_0_1_wf : ScatterDims.WF S100000x1 S640000x1 S640000x1 [1] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S4000x128_S128x256_S4000x256_1_0_0_1_n_n_wf : DotDims.WF S4000x128 S128x256 S4000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S100000x256.size a
  hwx0_6 : ∀ i : grid0.Coords, EltTy.bits .bf16 = 32 ∨ (Rect.block (s := S100000x256) S4000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S100000x256.size a
  hwx1_2 : ∀ i : grid1.Coords, EltTy.bits .bf16 = 32 ∨ (Rect.block (s := S100000x256) S4000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v21) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S4000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000x1 : Shape := ⟨2, ![100000, 1]⟩
abbrev S128x256 : Shape := ⟨2, ![128, 256]⟩
abbrev S100000x256 : Shape := ⟨2, ![100000, 256]⟩
abbrev S1x256 : Shape := ⟨2, ![1, 256]⟩
abbrev S640000x256 : Shape := ⟨2, ![640000, 256]⟩
abbrev S256x64 : Shape := ⟨2, ![256, 64]⟩
abbrev S100000x64 : Shape := ⟨2, ![100000, 64]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S64x256, .f32⟩
  | .hbm, ⟨6, _⟩ => ⟨S64, .f32⟩
  | .hbm, ⟨7, _⟩ => ⟨S64x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000x1, .f32⟩
  | .hbm, ⟨27, _⟩ => ⟨S_, .f32⟩
  | .hbm, ⟨28, _⟩ => ⟨S100000x1, .f32⟩
  | .hbm, ⟨29, _⟩ => ⟨S640000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x256, .f32⟩
  | .hbm, ⟨37, _⟩ => ⟨S100000x256, .f32⟩
  | .hbm, ⟨38, _⟩ => ⟨S1x256, .f32⟩
  | .hbm, ⟨39, _⟩ => ⟨S100000x256, .f32⟩
  | .hbm, ⟨40, _⟩ => ⟨S100000x256, .f32⟩
  | .hbm, ⟨41, _⟩ => ⟨S128x256, .f32⟩
  | .hbm, ⟨42, _⟩ => ⟨S100000x256, .f32⟩
  | .hbm, ⟨43, _⟩ => ⟨S100000x256, .f32⟩
  | .hbm, ⟨44, _⟩ => ⟨S_, .f32⟩
  | .hbm, ⟨45, _⟩ => ⟨S100000x256, .f32⟩
  | .hbm, ⟨46, _⟩ => ⟨S100000x256, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x256, .f32⟩
  | .hbm, ⟨56, _⟩ => ⟨S_, .f32⟩
  | .hbm, ⟨57, _⟩ => ⟨S100000x256, .f32⟩
  | .hbm, ⟨58, _⟩ => ⟨S640000x1, .i32⟩
  | .hbm, ⟨59, _⟩ => ⟨S100000x256, .f32⟩
  | .hbm, ⟨60, _⟩ => ⟨S_, .f32⟩
  | .hbm, ⟨61, _⟩ => ⟨S640000x1, .f32⟩
  | .hbm, ⟨62, _⟩ => ⟨S_, .f32⟩
  | .hbm, ⟨63, _⟩ => ⟨S100000x1, .f32⟩
  | .hbm, ⟨64, _⟩ => ⟨S640000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x256, .f32⟩
  | .hbm, ⟨70, _⟩ => ⟨S100000x256, .f32⟩
  | .hbm, ⟨71, _⟩ => ⟨S256x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S256x64, .f32⟩
  | .hbm, ⟨77, _⟩ => ⟨S100000x64, .f32⟩
  | .hbm, ⟨78, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S640000x1 : S_.BroadcastsInDim S640000x1 (![] : Fin 0 → Fin S640000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000x1_S640000x1_S640000x1_1_0_0_1_wf : ScatterDims.WF S100000x1 S640000x1 S640000x1 [1] [0] [0] 1
  dot_S100000x128_S128x256_S100000x256_1_0_0_1_n_n_wf : DotDims.WF S100000x128 S128x256 S100000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S100000x256_S256x64_S100000x64_1_0_0_1_n_n_wf : DotDims.WF S100000x256 S256x64 S100000x64 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.KernelRun.lean ====
import proofs.«116263_j6373731468068_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run with its result named

The run of @main on the TensorCores from any memory with zero counters terminates, and in every final state the
result buffer holds the last boundary's contents `W11` at it, and each argument holds what it was launched with. -/

set_option backward.isDefEq.respectTransparency.types false in
theorem run_result : θ_run defs (onTc (τ := τ) (main (F := F))) ⟨m, fun _ => 0, ρ⟩ (fun r => ∀ c : Dev nD,
      r.2.mem ((c.tc : Thread nD τ).loc main_v44) = W11 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨(h c _ (mem_uc main_v44 (by decide))),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

/-! # The fold read at the buffers that matter

Each boundary's contents at one buffer, as an equation between functions of the buffer's index type. -/

/-! ## The result and region 1's output -/

/-- The result is the leading 64 columns of the array region 1 writes. -/
theorem W11_main_v44 (c : Dev nD) :
    (W11 m ρ c (Proc.devRef .tc main_v44) : S100000x64.Idx → Elt F .f32)
      = extractStridedSlice S100000x64 ![0, 0] (W10 m ρ c (Proc.devRef .tc main_v43)) slices_S100000x128_S100000x64_0_0 := by
  show StableHlo.after hostOps2 _ (Proc.devRef .tc main_v44) = _
  after_results

/-- Region 1's output window (window 6) is on `main_v43`. -/
theorem arrRef1_6 : Pipeline.arrRef spec1 6 = main_v43 := by decide

/-- At region 1's exit its output array holds what the pipeline's write-backs leave, from the entry contents `V9`. -/
theorem W10_main_v43 (c : Dev nD) :
    (W10 m ρ c (Proc.devRef .tc main_v43) : S100000x128.Idx → Elt F .f32) = (dat1 (V9 m ρ) c).arrAt 6 cfg1.N :=
  W10_arr m ρ c 6

/-! ## The pure terms the host operations compute

Functions of the argument arrays' contents alone; the boundaries' contents below are these at the launch memory. -/

/-- The edges' source nodes: row 0 of the edge list, as a vector. -/
def edgeSrc (e : (⟨S2x640000, .i32⟩ : BufTy).Contents (Elt F)) : (⟨S640000, .i32⟩ : BufTy).Contents (Elt F) :=
  shapeCast S640000 (extractStridedSlice S1x640000 ![0, 0] e slices_S2x640000_S1x640000_0_0) shapeCasts_S1x640000_S640000

/-- The edges' destination nodes: row 1 of the edge list, as a vector. -/
def edgeDst (e : (⟨S2x640000, .i32⟩ : BufTy).Contents (Elt F)) : (⟨S640000, .i32⟩ : BufTy).Contents (Elt F) :=
  shapeCast S640000 (extractStridedSlice S1x640000 ![1, 0] e slices_S2x640000_S1x640000_1_0) shapeCasts_S1x640000_S640000

/-- A node index counted from the end when negative: `s + 100000` where `s < 0`, else `s`. -/
def wrapIdx (s : (⟨S640000, .i32⟩ : BufTy).Contents (Elt F)) : (⟨S640000, .i32⟩ : BufTy).Contents (Elt F) :=
  select (cmpi .slt s (broadcastInDim S640000 ![] bcast_S_S640000 (constantI S_ 32 0#32)))
    (addi s (broadcastInDim S640000 ![] bcast_S_S640000 (constantI S_ 32 100000#32))) s

/-- One over each node's in-degree, the degree taken at least one: ones scattered-added at the destinations,
    the maximum with one, then one divided by it. -/
def invDeg (d : (⟨S640000, .i32⟩ : BufTy).Contents (Elt F)) : (⟨S100000x1, .f32⟩ : BufTy).Contents (Elt F) :=
  Host.divf (broadcastInDim S100000x1 ![] bcast_S_S100000x1 (constant S_ .f32 0x3F800000#32))
    (maximumf
      (Host.scatterAdd scatter_S100000x1_S640000x1_S640000x1_1_0_0_1
        (broadcastInDim S100000x1 ![] bcast_S_S100000x1 (constant S_ .f32 0x00000000#32))
        (broadcastInDim S640000x1 ![0] bcast_S640000_S640000x1_0 d)
        (broadcastInDim S640000x1 ![] bcast_S_S640000x1 (constant S_ .f32 0x3F800000#32)))
      (broadcastInDim S100000x1 ![] bcast_S_S100000x1 (constant S_ .f32 0x3F800000#32)))

/-- The sum over each node's incoming edges of the source node's row of `x` (128 columns): the rows gathered at the
    sources, scattered-added at the destinations into zeros. -/
def nbrSum128 (x : (⟨S100000x128, .f32⟩ : BufTy).Contents (Elt F)) (s d : (⟨S640000, .i32⟩ : BufTy).Contents (Elt F)) : (⟨S100000x128, .f32⟩ : BufTy).Contents (Elt F) :=
  Host.scatterAdd scatter_S100000x128_S640000x1_S640000x128_1_0_0_1
    (broadcastInDim S100000x128 ![] bcast_S_S100000x128 (constant S_ .f32 0x00000000#32))
    (broadcastInDim S640000x1 ![0] bcast_S640000_S640000x1_0 d)
    (Host.gather gather_S100000x128_S640000x1_S640000x128_1_0_n_n_0_1_1128 x
      (broadcastInDim S640000x1 ![0] bcast_S640000_S640000x1_0 (wrapIdx s)))

/-- The same sum for the 256-column bf16 array `h`, each gathered row widened to f32 before it is added. -/
def nbrSum256 (h : (⟨S100000x256, .bf16⟩ : BufTy).Contents (Elt F)) (s d : (⟨S640000, .i32⟩ : BufTy).Contents (Elt F)) : (⟨S100000x256, .f32⟩ : BufTy).Contents (Elt F) :=
  Host.scatterAdd scatter_S100000x256_S640000x1_S640000x256_1_0_0_1
    (broadcastInDim S100000x256 ![] bcast_S_S100000x256 (constant S_ .f32 0x00000000#32))
    (broadcastInDim S640000x1 ![0] bcast_S640000_S640000x1_0 d)
    (extf .f32
      (Host.gather gather_S100000x256_S640000x1_S640000x256_1_0_n_n_0_1_1256 h
        (broadcastInDim S640000x1 ![0] bcast_S640000_S640000x1_0 (wrapIdx s)))
      bitsLt_bf16_f32)

/-- A 64-row weight matrix padded below with 64 rows of zero (the zero is the integer 0 converted), then transposed. -/
def padT (w : (⟨S64x256, .f32⟩ : BufTy).Contents (Elt F)) : (⟨S256x128, .f32⟩ : BufTy).Contents (Elt F) :=
  transpose S256x128 [1, 0]
    (pad S128x256 ![0, 0] ![64, 0] ![0, 0] w (sitofp .f32 (constantI S_ 32 0#32)) pads_S64x256_S128x256_0640_000 h_S_)
    transposes_S128x256_S256x128_1_0

/-- A 64-entry bias padded behind with 64 zeros (the integer 0 converted), as one row. -/
def padRow (b : (⟨S64, .f32⟩ : BufTy).Contents (Elt F)) : (⟨S1x128, .f32⟩ : BufTy).Contents (Elt F) :=
  shapeCast S1x128 (pad S128 ![0] ![64] ![0] b (sitofp .f32 (constantI S_ 32 0#32)) pads_S64_S128_0640 h_S_) shapeCasts_S128_S1x128

/-! ## Region 0's entry arrays (`V1`), in terms of the launch memory -/

/-- Window 0: the neighbour sums of the node features. -/
theorem V1_main_v21 (c : Dev nD) :
    (V1 m ρ c main_v21 : (⟨S100000x128, .f32⟩ : BufTy).Contents (Elt F))
      = nbrSum128 (m ((c : Thread nD τ).loc main_arg0)) (edgeSrc (m ((c : Thread nD τ).loc main_arg1)))
          (edgeDst (m ((c : Thread nD τ).loc main_arg1))) := by
  show StableHlo.after hostOps0 _ (Proc.devRef .tc main_v21) = _
  after_results_simp <;> rfl

/-- Window 1: the inverse degrees. -/
theorem V1_main_v11 (c : Dev nD) :
    (V1 m ρ c main_v11 : (⟨S100000x1, .f32⟩ : BufTy).Contents (Elt F)) = invDeg (edgeDst (m ((c : Thread nD τ).loc main_arg1))) := by
  show StableHlo.after hostOps0 _ (Proc.devRef .tc main_v11) = _
  after_results_simp <;> rfl

/-- Window 2: the node features as launched. -/
theorem V1_main_arg0 (c : Dev nD) :
    (V1 m ρ c main_arg0 : (⟨S100000x128, .f32⟩ : BufTy).Contents (Elt F)) = m ((c : Thread nD τ).loc main_arg0) := by
  show StableHlo.after hostOps0 _ (Proc.devRef .tc main_arg0) = _
  after_results_simp <;> rfl

/-- Window 3: the first weight matrix transposed. -/
theorem V1_main_v22 (c : Dev nD) :
    (V1 m ρ c main_v22 : (⟨S128x256, .f32⟩ : BufTy).Contents (Elt F))
      = transpose S128x256 [1, 0] (m ((c : Thread nD τ).loc main_arg2)) transposes_S256x128_S128x256_1_0 := by
  show StableHlo.after hostOps0 _ (Proc.devRef .tc main_v22) = _
  after_results_simp <;> rfl

/-- Window 4: the second weight matrix transposed. -/
theorem V1_main_v23 (c : Dev nD) :
    (V1 m ρ c main_v23 : (⟨S128x256, .f32⟩ : BufTy).Contents (Elt F))
      = transpose S128x256 [1, 0] (m ((c : Thread nD τ).loc main_arg4)) transposes_S256x128_S128x256_1_0 := by
  show StableHlo.after hostOps0 _ (Proc.devRef .tc main_v23) = _
  after_results_simp <;> rfl

/-- Window 5: the bias as one row. -/
theorem V1_main_v24 (c : Dev nD) :
    (V1 m ρ c main_v24 : (⟨S1x256, .f32⟩ : BufTy).Contents (Elt F))
      = shapeCast S1x256 (m ((c : Thread nD τ).loc main_arg3)) shapeCasts_S256_S1x256 := by
  show StableHlo.after hostOps0 _ (Proc.devRef .tc main_v24) = _
  after_results_simp <;> rfl

/-- The edge sources and destinations at region 0's entry. -/
theorem V1_main_v1 (c : Dev nD) :
    (V1 m ρ c main_v1 : (⟨S640000, .i32⟩ : BufTy).Contents (Elt F)) = edgeSrc (m ((c : Thread nD τ).loc main_arg1)) := by
  show StableHlo.after hostOps0 _ (Proc.devRef .tc main_v1) = _
  after_results_simp <;> rfl
theorem V1_main_v3 (c : Dev nD) :
    (V1 m ρ c main_v3 : (⟨S640000, .i32⟩ : BufTy).Contents (Elt F)) = edgeDst (m ((c : Thread nD τ).loc main_arg1)) := by
  show StableHlo.after hostOps0 _ (Proc.devRef .tc main_v3) = _
  after_results_simp <;> rfl

/-! ## Region 0's exit (`W2`) at the buffers the later stretches and region 1 read -/

/-- Region 0's output window (window 6) is on `main_v25`: at the exit it holds what the pipeline's write-backs leave. -/
theorem W2_main_v25 (c : Dev nD) :
    (W2 m ρ c (Proc.devRef .tc main_v25) : (⟨S100000x256, .bf16⟩ : BufTy).Contents (Elt F)) = (dat0 (V1 m ρ) c).arrAt 6 cfg0.N :=
  W2_arr m ρ c 6

/-- The inverse degrees are an input of region 0: unchanged by it. -/
theorem W2_main_v11 (c : Dev nD) :
    (W2 m ρ c (Proc.devRef .tc main_v11) : (⟨S100000x1, .f32⟩ : BufTy).Contents (Elt F)) = invDeg (edgeDst (m ((c : Thread nD τ).loc main_arg1))) :=
  (W2_arr m ρ c 1).trans (((dat0 (V1 m ρ) c).arrAt_in 1 rfl _).trans ((A_eq0 (V1 m ρ) c 1).trans (V1_main_v11 m ρ c)))

/-- The edge sources and destinations are no array of region 0: unchanged by it. -/
theorem W2_main_v1 (c : Dev nD) :
    (W2 m ρ c (Proc.devRef .tc main_v1) : (⟨S640000, .i32⟩ : BufTy).Contents (Elt F)) = edgeSrc (m ((c : Thread nD τ).loc main_arg1)) :=
  (W2_of_ne m ρ c main_v1 (by decide)).trans (V1_main_v1 m ρ c)
theorem W2_main_v3 (c : Dev nD) :
    (W2 m ρ c (Proc.devRef .tc main_v3) : (⟨S640000, .i32⟩ : BufTy).Contents (Elt F)) = edgeDst (m ((c : Thread nD τ).loc main_arg1)) :=
  (W2_of_ne m ρ c main_v3 (by decide)).trans (V1_main_v3 m ρ c)

/-- The second layer's weights and bias are as launched at region 0's exit. -/
theorem W2_main_arg5 (c : Dev nD) :
    (W2 m ρ c (Proc.devRef .tc main_arg5) : (⟨S64x256, .f32⟩ : BufTy).Contents (Elt F)) = m ((c : Thread nD τ).loc main_arg5) :=
  (W2_of_ne m ρ c main_arg5 (by decide)).trans (by
    show StableHlo.after hostOps0 _ (Proc.devRef .tc main_arg5) = _
    after_results_simp <;> rfl)
theorem W2_main_arg6 (c : Dev nD) :
    (W2 m ρ c (Proc.devRef .tc main_arg6) : (⟨S64, .f32⟩ : BufTy).Contents (Elt F)) = m ((c : Thread nD τ).loc main_arg6) :=
  (W2_of_ne m ρ c main_arg6 (by decide)).trans (by
    show StableHlo.after hostOps0 _ (Proc.devRef .tc main_arg6) = _
    after_results_simp <;> rfl)
theorem W2_main_arg7 (c : Dev nD) :
    (W2 m ρ c (Proc.devRef .tc main_arg7) : (⟨S64x256, .f32⟩ : BufTy).Contents (Elt F)) = m ((c : Thread nD τ).loc main_arg7) :=
  (W2_of_ne m ρ c main_arg7 (by decide)).trans (by
    show StableHlo.after hostOps0 _ (Proc.devRef .tc main_arg7) = _
    after_results_simp <;> rfl)

/-! ## Region 1's entry arrays (`V9`) -/

/-- Window 0: the neighbour sums of region 0's output, over the edge vectors as region 0 leaves them. -/
theorem V9_main_v36 (c : Dev nD) :
    (V9 m ρ c main_v36 : (⟨S100000x256, .f32⟩ : BufTy).Contents (Elt F))
      = nbrSum256 (W2 m ρ c (Proc.devRef .tc main_v25)) (W2 m ρ c (Proc.devRef .tc main_v1))
          (W2 m ρ c (Proc.devRef .tc main_v3)) := by
  show StableHlo.after hostOps1_6 _ (Proc.devRef .tc main_v36) = _
  after_results_simp <;> rfl

/-- The same with region 0's output as its write-backs and the edge vectors in terms of the launch memory. -/
theorem V9_main_v36_eq (c : Dev nD) :
    (V9 m ρ c main_v36 : (⟨S100000x256, .f32⟩ : BufTy).Contents (Elt F))
      = nbrSum256 ((dat0 (V1 m ρ) c).arrAt 6 cfg0.N) (edgeSrc (m ((c : Thread nD τ).loc main_arg1))) (edgeDst (m ((c : Thread nD τ).loc main_arg1))) :=
  (V9_main_v36 m ρ c).trans (by rw [W2_main_v25, W2_main_v1, W2_main_v3])

/-- Window 1: the inverse degrees, the same term as at region 0's entry. -/
theorem V9_main_v11 (c : Dev nD) :
    (V9 m ρ c main_v11 : (⟨S100000x1, .f32⟩ : BufTy).Contents (Elt F)) = invDeg (edgeDst (m ((c : Thread nD τ).loc main_arg1))) := by
  refine Eq.trans ?_ (W2_main_v11 m ρ c)
  show StableHlo.after hostOps1_6 _ (Proc.devRef .tc main_v11) = _
  after_results_simp <;> rfl

/-- Window 2: region 0's output as its write-backs leave it. -/
theorem V9_main_v25 (c : Dev nD) :
    (V9 m ρ c main_v25 : (⟨S100000x256, .bf16⟩ : BufTy).Contents (Elt F)) = (dat0 (V1 m ρ) c).arrAt 6 cfg0.N := by
  refine Eq.trans ?_ (W2_main_v25 m ρ c)
  show StableHlo.after hostOps1_6 _ (Proc.devRef .tc main_v25) = _
  after_results_simp <;> rfl

/-- Window 3: the second layer's first weight matrix, padded and transposed. -/
theorem V9_main_v40 (c : Dev nD) :
    (V9 m ρ c main_v40 : (⟨S256x128, .f32⟩ : BufTy).Contents (Elt F)) = padT (m ((c : Thread nD τ).loc main_arg5)) := by
  refine Eq.trans ?_ (congrArg padT (W2_main_arg5 m ρ c))
  show StableHlo.after hostOps1_6 _ (Proc.devRef .tc main_v40) = _
  after_results_simp <;> rfl

/-- Window 4: the second layer's second weight matrix, padded and transposed. -/
theorem V9_main_v41 (c : Dev nD) :
    (V9 m ρ c main_v41 : (⟨S256x128, .f32⟩ : BufTy).Contents (Elt F)) = padT (m ((c : Thread nD τ).loc main_arg7)) := by
  refine Eq.trans ?_ (congrArg padT (W2_main_arg7 m ρ c))
  show StableHlo.after hostOps1_6 _ (Proc.devRef .tc main_v41) = _
  after_results_simp <;> rfl

/-- Window 5: the second layer's bias, padded, as one row. -/
theorem V9_main_v42 (c : Dev nD) :
    (V9 m ρ c main_v42 : (⟨S1x128, .f32⟩ : BufTy).Contents (Elt F)) = padRow (m ((c : Thread nD τ).loc main_arg6)) := by
  refine Eq.trans ?_ (congrArg padRow (W2_main_arg6 m ρ c))
  show StableHlo.after hostOps1_6 _ (Proc.devRef .tc main_v42) = _
  after_results_simp <;> rfl

/-! ## The same at the windows' own references -/

theorem arrRef0_eq : Pipeline.arrRef spec0 0 = main_v21 ∧ Pipeline.arrRef spec0 1 = main_v11 ∧ Pipeline.arrRef spec0 2 = main_arg0
    ∧ Pipeline.arrRef spec0 3 = main_v22 ∧ Pipeline.arrRef spec0 4 = main_v23 ∧ Pipeline.arrRef spec0 5 = main_v24
    ∧ Pipeline.arrRef spec0 6 = main_v25 := by decide
theorem arrRef1_eq : Pipeline.arrRef spec1 0 = main_v36 ∧ Pipeline.arrRef spec1 1 = main_v11 ∧ Pipeline.arrRef spec1 2 = main_v25
    ∧ Pipeline.arrRef spec1 3 = main_v40 ∧ Pipeline.arrRef spec1 4 = main_v41 ∧ Pipeline.arrRef spec1 5 = main_v42
    ∧ Pipeline.arrRef spec1 6 = main_v43 := by decide

theorem V1_arr0 (c : Dev nD) : (V1 m ρ c (Pipeline.arrRef spec0 0) : (⟨S100000x128, .f32⟩ : BufTy).Contents (Elt F))
    = nbrSum128 (m ((c : Thread nD τ).loc main_arg0)) (edgeSrc (m ((c : Thread nD τ).loc main_arg1))) (edgeDst (m ((c : Thread nD τ).loc main_arg1))) := V1_main_v21 m ρ c
theorem V1_arr1 (c : Dev nD) : (V1 m ρ c (Pipeline.arrRef spec0 1) : (⟨S100000x1, .f32⟩ : BufTy).Contents (Elt F))
    = invDeg (edgeDst (m ((c : Thread nD τ).loc main_arg1))) := V1_main_v11 m ρ c
theorem V1_arr2 (c : Dev nD) : (V1 m ρ c (Pipeline.arrRef spec0 2) : (⟨S100000x128, .f32⟩ : BufTy).Contents (Elt F)) = m ((c : Thread nD τ).loc main_arg0) := V1_main_arg0 m ρ c
theorem V1_arr3 (c : Dev nD) : (V1 m ρ c (Pipeline.arrRef spec0 3) : (⟨S128x256, .f32⟩ : BufTy).Contents (Elt F))
    = transpose S128x256 [1, 0] (m ((c : Thread nD τ).loc main_arg2)) transposes_S256x128_S128x256_1_0 := V1_main_v22 m ρ c
theorem V1_arr4 (c : Dev nD) : (V1 m ρ c (Pipeline.arrRef spec0 4) : (⟨S128x256, .f32⟩ : BufTy).Contents (Elt F))
    = transpose S128x256 [1, 0] (m ((c : Thread nD τ).loc main_arg4)) transposes_S256x128_S128x256_1_0 := V1_main_v23 m ρ c
theorem V1_arr5 (c : Dev nD) : (V1 m ρ c (Pipeline.arrRef spec0 5) : (⟨S1x256, .f32⟩ : BufTy).Contents (Elt F))
    = shapeCast S1x256 (m ((c : Thread nD τ).loc main_arg3)) shapeCasts_S256_S1x256 := V1_main_v24 m ρ c

theorem V9_arr0 (c : Dev nD) : (V9 m ρ c (Pipeline.arrRef spec1 0) : (⟨S100000x256, .f32⟩ : BufTy).Contents (Elt F))
    = nbrSum256 ((dat0 (V1 m ρ) c).arrAt 6 cfg0.N) (edgeSrc (m ((c : Thread nD τ).loc main_arg1))) (edgeDst (m ((c : Thread nD τ).loc main_arg1))) := V9_main_v36_eq m ρ c
theorem V9_arr1 (c : Dev nD) : (V9 m ρ c (Pipeline.arrRef spec1 1) : (⟨S100000x1, .f32⟩ : BufTy).Contents (Elt F))
    = invDeg (edgeDst (m ((c : Thread nD τ).loc main_arg1))) := V9_main_v11 m ρ c
theorem V9_arr2 (c : Dev nD) : (V9 m ρ c (Pipeline.arrRef spec1 2) : (⟨S100000x256, .bf16⟩ : BufTy).Contents (Elt F))
    = (dat0 (V1 m ρ) c).arrAt 6 cfg0.N := V9_main_v25 m ρ c
theorem V9_arr3 (c : Dev nD) : (V9 m ρ c (Pipeline.arrRef spec1 3) : (⟨S256x128, .f32⟩ : BufTy).Contents (Elt F)) = padT (m ((c : Thread nD τ).loc main_arg5)) := V9_main_v40 m ρ c
theorem V9_arr4 (c : Dev nD) : (V9 m ρ c (Pipeline.arrRef spec1 4) : (⟨S256x128, .f32⟩ : BufTy).Contents (Elt F)) = padT (m ((c : Thread nD τ).loc main_arg7)) := V9_main_v41 m ρ c
theorem V9_arr5 (c : Dev nD) : (V9 m ρ c (Pipeline.arrRef spec1 5) : (⟨S1x128, .f32⟩ : BufTy).Contents (Elt F)) = padRow (m ((c : Thread nD τ).loc main_arg6)) := V9_main_v42 m ρ c

end Cert.KernelIdeal.RunValue

end
-- ==== Proof.RefAt.lean ====
import proofs.«116263_j6373731468068_2_alg».proof.Proof.Gen.ReferenceIdeal.Read

/-! The idealized reference read at an index, over the extended reals.

  The reference is a two-layer mean-aggregation network. Writing `agg1` for the scatter-add of the gathered
  input rows, `M` for the in-degree count raised to at least one, and `agg2` for the scatter-add of the
  gathered hidden rows:

    hidden n j = max ( (∑ k, (agg1 n k / M n) · W1l j k) + b1 j + ∑ k, x n k · W1r j k ) 0
    out    n j =       (∑ k, (agg2 n k / M n) · W2l j k) + b2 j + ∑ k, hidden n k · W2r j k

  The scatter-adds and gathers are kept as opaque terms; everything else is read element by element. -/

noncomputable section

namespace Cert.ReferenceIdeal.RefValue

open Idealize.ShloMosaic Idealize.ShloMosaic.TcCoe Idealize.SL.Sem
open Cert.ReferenceIdeal Cert.ReferenceIdeal.Gen Cert.ReferenceIdeal.Read
open Idealize.ShloMosaic.ValueIdx

/-- The hidden layer at row `n`, column `j`: the mean-aggregated neighbour features through the first weight,
    plus the bias, plus the node's own features through the second weight, clamped below at zero. -/
theorem hidden_at (x0 : (⟨S100000x128, .f32⟩ : BufTy).Contents (Elt Ideal)) (x1 : (⟨S2x640000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal))
    (n : Fin 100000) (j : Fin 256) :
    val_main_v30 (F := Ideal) x0 x1 x2 x3 x4 (ix2 n j) =
      max (((∑ k : Fin 128, Ideal.div (val_main_v13 (F := Ideal) x0 x1 (ix2 n k)) (val_main_v19 (F := Ideal) x1 (ix2 n (0 : Fin 1))) * x2 (ix2 j k))
              + x3 (ix1 j))
            + ∑ k : Fin 128, x0 (ix2 n k) * x4 (ix2 j k))
          (Ideal.ofBits .f32 0x00000000#32) := by
  -- the index maps of the two contractions, the transposes and the broadcasts, at coordinates
  have el23 : ∀ k : Fin 128, lidx_main_v23 (ix2 n j) k = ix2 n k := fun k => funext fun a => Fin.ext (by match a with | ⟨0, _⟩ => rfl | ⟨1, _⟩ => rfl)
  have er23 : ∀ k : Fin 128, idx_main_v22 (ridx_main_v23 (ix2 n j) k) = ix2 j k := fun k => funext fun a => Fin.ext (by match a with | ⟨0, _⟩ => rfl | ⟨1, _⟩ => rfl)
  have e20 : ∀ k : Fin 128, idx_main_v20 (ix2 n k) = ix2 n (0 : Fin 1) := fun k => funext fun a => Fin.ext (by match a with | ⟨0, _⟩ => rfl | ⟨1, _⟩ => rfl)
  have e25 : idx_main_v24 (idx_main_v25 (ix2 n j)) = ix1 j := funext fun a => Fin.ext (by match a with | ⟨0, _⟩ => rfl)
  have el28 : ∀ k : Fin 128, lidx_main_v28 (ix2 n j) k = ix2 n k := fun k => funext fun a => Fin.ext (by match a with | ⟨0, _⟩ => rfl | ⟨1, _⟩ => rfl)
  have er28 : ∀ k : Fin 128, idx_main_v27 (ridx_main_v28 (ix2 n j) k) = ix2 j k := fun k => funext fun a => Fin.ext (by match a with | ⟨0, _⟩ => rfl | ⟨1, _⟩ => rfl)
  rw [val_main_v30_apply, val_main_v29_apply, val_main_v26_apply, val_main_v23_apply, val_main_v25_apply,
    val_main_v24_apply, val_main_v28_apply, val_main_call0_v0_apply, val_main_call0_cst_apply]
  simp only [val_main_v21_apply, val_main_v20_apply, val_main_v22_apply, val_main_v27_apply,
    el23, er23, e20, e25, el28, er28,
    Ideal.maximumf_def, Ideal.addf_def, Ideal.hostDivf_def, Ideal.ofBits_def]

/-- The same with the clamp's constant evaluated: the zero word is the extended real `0`. -/
theorem hidden_at_zero (x0 : (⟨S100000x128, .f32⟩ : BufTy).Contents (Elt Ideal)) (x1 : (⟨S2x640000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal))
    (n : Fin 100000) (j : Fin 256) :
    val_main_v30 (F := Ideal) x0 x1 x2 x3 x4 (ix2 n j) =
      max (((∑ k : Fin 128, Ideal.div (val_main_v13 (F := Ideal) x0 x1 (ix2 n k)) (val_main_v19 (F := Ideal) x1 (ix2 n (0 : Fin 1))) * x2 (ix2 j k))
              + x3 (ix1 j))
            + ∑ k : Fin 128, x0 (ix2 n k) * x4 (ix2 j k))
          0 := by
  rw [hidden_at, Ideal.ofBits_zero_f32]

/-- The output at row `n`, column `j`: the mean-aggregated hidden rows through the first output weight,
    plus the bias, plus the node's own hidden row through the second output weight. -/
theorem out_at (x0 : (⟨S100000x128, .f32⟩ : BufTy).Contents (Elt Ideal)) (x1 : (⟨S2x640000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S64x256, .f32⟩ : BufTy).Contents (Elt Ideal)) (x6 : (⟨S64, .f32⟩ : BufTy).Contents (Elt Ideal)) (x7 : (⟨S64x256, .f32⟩ : BufTy).Contents (Elt Ideal))
    (n : Fin 100000) (j : Fin 64) :
    val_main_v56 (F := Ideal) x0 x1 x2 x3 x4 x5 x6 x7 (ix2 n j) =
      ((∑ k : Fin 256, Ideal.div (val_main_v40 (F := Ideal) x0 x1 x2 x3 x4 (ix2 n k)) (val_main_v46 (F := Ideal) x1 (ix2 n (0 : Fin 1))) * x5 (ix2 j k))
          + x6 (ix1 j))
        + ∑ k : Fin 256, val_main_v30 (F := Ideal) x0 x1 x2 x3 x4 (ix2 n k) * x7 (ix2 j k) := by
  -- the index maps of the two contractions, the transposes and the broadcasts, at coordinates
  have el50 : ∀ k : Fin 256, lidx_main_v50 (ix2 n j) k = ix2 n k := fun k => funext fun a => Fin.ext (by match a with | ⟨0, _⟩ => rfl | ⟨1, _⟩ => rfl)
  have er50 : ∀ k : Fin 256, idx_main_v49 (ridx_main_v50 (ix2 n j) k) = ix2 j k := fun k => funext fun a => Fin.ext (by match a with | ⟨0, _⟩ => rfl | ⟨1, _⟩ => rfl)
  have e47 : ∀ k : Fin 256, idx_main_v47 (ix2 n k) = ix2 n (0 : Fin 1) := fun k => funext fun a => Fin.ext (by match a with | ⟨0, _⟩ => rfl | ⟨1, _⟩ => rfl)
  have e52 : idx_main_v51 (idx_main_v52 (ix2 n j)) = ix1 j := funext fun a => Fin.ext (by match a with | ⟨0, _⟩ => rfl)
  have el55 : ∀ k : Fin 256, lidx_main_v55 (ix2 n j) k = ix2 n k := fun k => funext fun a => Fin.ext (by match a with | ⟨0, _⟩ => rfl | ⟨1, _⟩ => rfl)
  have er55 : ∀ k : Fin 256, idx_main_v54 (ridx_main_v55 (ix2 n j) k) = ix2 j k := fun k => funext fun a => Fin.ext (by match a with | ⟨0, _⟩ => rfl | ⟨1, _⟩ => rfl)
  rw [val_main_v56_apply, val_main_v53_apply, val_main_v50_apply, val_main_v52_apply, val_main_v51_apply,
    val_main_v55_apply]
  simp only [val_main_v48_apply, val_main_v47_apply, val_main_v49_apply, val_main_v54_apply,
    el50, er50, e47, e52, el55, er55,
    Ideal.addf_def, Ideal.hostDivf_def]

/-! The stages that are not read at an index, as terms. -/

/-- The first aggregate: the gathered input rows added into a zero array at the target rows. -/
theorem agg1_eq (x0 : (⟨S100000x128, .f32⟩ : BufTy).Contents (Elt Ideal)) (x1 : (⟨S2x640000, .i32⟩ : BufTy).Contents (Elt Ideal)) :
    val_main_v13 (F := Ideal) x0 x1 =
      (Host.scatterAdd (F := Ideal) (φ := .f32) scatter_S100000x128_S640000x1_S640000x128_1_0_0_1 (val_main_v11 (F := Ideal))
        (val_main_v12 (F := Ideal) x1) (val_main_v10 (F := Ideal) x0 x1) : (⟨S100000x128, .f32⟩ : BufTy).Contents (Elt Ideal)) := by
  first | (unfold val_main_v13; rfl) | rfl

/-- The rows gathered for the first aggregate: the input's rows at the source nodes. -/
theorem gathered1_eq (x0 : (⟨S100000x128, .f32⟩ : BufTy).Contents (Elt Ideal)) (x1 : (⟨S2x640000, .i32⟩ : BufTy).Contents (Elt Ideal)) :
    val_main_v10 (F := Ideal) x0 x1 =
      (Host.gather gather_S100000x128_S640000x1_S640000x128_1_0_n_n_0_1_1128 x0 (val_main_v9 (F := Ideal) x1) :
        (⟨S640000x128, .f32⟩ : BufTy).Contents (Elt Ideal)) := by
  first | (unfold val_main_v10; rfl) | rfl

/-- The second aggregate: the hidden layer's rows at the source nodes, added into a zero array at the target rows. -/
theorem agg2_eq (x0 : (⟨S100000x128, .f32⟩ : BufTy).Contents (Elt Ideal)) (x1 : (⟨S2x640000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) :
    val_main_v40 (F := Ideal) x0 x1 x2 x3 x4 =
      (Host.scatterAdd (F := Ideal) (φ := .f32) scatter_S100000x256_S640000x1_S640000x256_1_0_0_1 (val_main_v38 (F := Ideal))
        (val_main_v39 (F := Ideal) x1)
        (Host.gather gather_S100000x256_S640000x1_S640000x256_1_0_n_n_0_1_1256
          (val_main_v30 (F := Ideal) x0 x1 x2 x3 x4) (val_main_v36 (F := Ideal) x1) :
          (⟨S640000x256, .f32⟩ : BufTy).Contents (Elt Ideal)) : (⟨S100000x256, .f32⟩ : BufTy).Contents (Elt Ideal)) := by
  first | (unfold val_main_v40 val_main_v37; rfl) | rfl

/-- The second layer divides by the same count as the first. -/
theorem count2_eq_count1 (x1 : (⟨S2x640000, .i32⟩ : BufTy).Contents (Elt Ideal)) :
    val_main_v46 (F := Ideal) x1 = val_main_v19 (F := Ideal) x1 := rfl

/-- The count: the in-degree, raised to at least one. -/
theorem count_eq (x1 : (⟨S2x640000, .i32⟩ : BufTy).Contents (Elt Ideal)) :
    val_main_v19 (F := Ideal) x1 =
      (maximumf (F := Ideal) (s := S100000x1) (φ := .f32) (val_main_v17 (F := Ideal) x1) (val_main_v18 (F := Ideal)) :
        (⟨S100000x1, .f32⟩ : BufTy).Contents (Elt Ideal)) := by
  first | (unfold val_main_v19; rfl) | rfl

/-- The in-degree: ones added into a zero column at the target rows. -/
theorem degree_eq (x1 : (⟨S2x640000, .i32⟩ : BufTy).Contents (Elt Ideal)) :
    val_main_v17 (F := Ideal) x1 =
      (Host.scatterAdd (F := Ideal) (φ := .f32) scatter_S100000x1_S640000x1_S640000x1_1_0_0_1 (val_main_v15 (F := Ideal))
        (val_main_v16 (F := Ideal) x1) (val_main_v14 (F := Ideal)) : (⟨S100000x1, .f32⟩ : BufTy).Contents (Elt Ideal)) := by
  first | (unfold val_main_v17; rfl) | rfl

/-- The lower bound of the count is the constant one everywhere. -/
theorem one_at (i : S100000x1.Idx) :
    val_main_v18 (F := Ideal) i = Ideal.ofBits .f32 0x3F800000#32 := by
  rw [val_main_v18_apply, val_main_cst_3_apply, Ideal.ofBits_def]

end Cert.ReferenceIdeal.RefValue

end
-- ==== Proof.SageBody.lean ====
/-
  The two kernel bodies read at an index, at the ideal values.

  Each body takes a block of 4000 nodes: the aggregated rows `x0`, the per-node reciprocal `x1` (one column), the
  nodes' own rows `x2`, two weight matrices `x3`, `x4` already transposed to (input feature, output feature), and the
  bias as one row `x5`. Its result at (node p, output feature q) is
      (∑ₖ (x0 (p,k) · x1 (p,0)) · x3 (k,q)  +  ∑ₖ x2 (p,k) · x4 (k,q))  +  x5 (0,q),
  clamped below by 0 in the first layer. Changes of float format are the identity on extended reals, and a matrix
  product into a zero accumulator is the plain sum over the contracted axis.
-/
import proofs.«116263_j6373731468068_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- A one-column array broadcast along the rows reads, at (p, c), the column's entry at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The operand indices of the first layer's product at an output index and a contraction index, coordinate by coordinate. -/
theorem matmul0_lhs_0 (i : S4000x256.Idx) (c : dot_S4000x128_S128x256_S4000x256_1_0_0_1_n_n.contr.Idx) : (dot_S4000x128_S128x256_S4000x256_1_0_0_1_n_n.lhsIdx i c 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem matmul0_lhs_1 (i : S4000x256.Idx) (c : dot_S4000x128_S128x256_S4000x256_1_0_0_1_n_n.contr.Idx) : (dot_S4000x128_S128x256_S4000x256_1_0_0_1_n_n.lhsIdx i c 1).val = (c ⟨0, by decide⟩).val :=
  dot_S4000x128_S128x256_S4000x256_1_0_0_1_n_n.lhsIdx_val_of_single rfl i c
theorem matmul0_rhs_0 (i : S4000x256.Idx) (c : dot_S4000x128_S128x256_S4000x256_1_0_0_1_n_n.contr.Idx) : (dot_S4000x128_S128x256_S4000x256_1_0_0_1_n_n.rhsIdx i c 0).val = (c ⟨0, by decide⟩).val :=
  dot_S4000x128_S128x256_S4000x256_1_0_0_1_n_n.rhsIdx_val_of_single rfl i c
theorem matmul0_rhs_1 (i : S4000x256.Idx) (c : dot_S4000x128_S128x256_S4000x256_1_0_0_1_n_n.contr.Idx) : (dot_S4000x128_S128x256_S4000x256_1_0_0_1_n_n.rhsIdx i c 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- The first layer's matrix product [4000,128] × [128,256] into a zero accumulator, at (p, q): the sum over the 128
    input features. -/
theorem matmul0_at (l : FVec Ideal S4000x128 .bf16) (r : FVec Ideal S128x256 .bf16) (p : Fin 4000) (q : Fin 256) :
    matmul dot_S4000x128_S128x256_S4000x256_1_0_0_1_n_n none l r (constant S4000x256 .f32 0x00000000#32) (ix2 p q)
      = ∑ k : Fin 128, l (ix2 p k) * r (ix2 k q) := by
  refine (Ideal.matmul_constant_zero_apply dot_S4000x128_S128x256_S4000x256_1_0_0_1_n_n none l r (ix2 p q)).trans ?_
  rw [← Equiv.sum_comp (ValueIdx.contrEquiv1 dot_S4000x128_S128x256_S4000x256_1_0_0_1_n_n 128 rfl rfl).symm]
  refine Finset.sum_congr rfl fun k _ => ?_
  have hk := ValueIdx.contrEquiv1_symm_val dot_S4000x128_S128x256_S4000x256_1_0_0_1_n_n 128 rfl rfl k
  have el : dot_S4000x128_S128x256_S4000x256_1_0_0_1_n_n.lhsIdx (ix2 p q) ((ValueIdx.contrEquiv1 dot_S4000x128_S128x256_S4000x256_1_0_0_1_n_n 128 rfl rfl).symm k) = ix2 p k := funext fun a => Fin.ext (by
    match a with
    | ⟨0, _⟩ => exact matmul0_lhs_0 _ _
    | ⟨1, _⟩ => exact (matmul0_lhs_1 _ _).trans hk)
  have er : dot_S4000x128_S128x256_S4000x256_1_0_0_1_n_n.rhsIdx (ix2 p q) ((ValueIdx.contrEquiv1 dot_S4000x128_S128x256_S4000x256_1_0_0_1_n_n 128 rfl rfl).symm k) = ix2 k q := funext fun a => Fin.ext (by
    match a with
    | ⟨0, _⟩ => exact (matmul0_rhs_0 _ _).trans hk
    | ⟨1, _⟩ => exact matmul0_rhs_1 _ _)
  rw [el, er]

/-- The operand indices of the second layer's product at an output index and a contraction index, coordinate by coordinate. -/
theorem matmul1_lhs_0 (i : S4000x128.Idx) (c : dot_S4000x256_S256x128_S4000x128_1_0_0_1_n_n.contr.Idx) : (dot_S4000x256_S256x128_S4000x128_1_0_0_1_n_n.lhsIdx i c 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem matmul1_lhs_1 (i : S4000x128.Idx) (c : dot_S4000x256_S256x128_S4000x128_1_0_0_1_n_n.contr.Idx) : (dot_S4000x256_S256x128_S4000x128_1_0_0_1_n_n.lhsIdx i c 1).val = (c ⟨0, by decide⟩).val :=
  dot_S4000x256_S256x128_S4000x128_1_0_0_1_n_n.lhsIdx_val_of_single rfl i c
theorem matmul1_rhs_0 (i : S4000x128.Idx) (c : dot_S4000x256_S256x128_S4000x128_1_0_0_1_n_n.contr.Idx) : (dot_S4000x256_S256x128_S4000x128_1_0_0_1_n_n.rhsIdx i c 0).val = (c ⟨0, by decide⟩).val :=
  dot_S4000x256_S256x128_S4000x128_1_0_0_1_n_n.rhsIdx_val_of_single rfl i c
theorem matmul1_rhs_1 (i : S4000x128.Idx) (c : dot_S4000x256_S256x128_S4000x128_1_0_0_1_n_n.contr.Idx) : (dot_S4000x256_S256x128_S4000x128_1_0_0_1_n_n.rhsIdx i c 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The second layer's matrix product [4000,256] × [256,128] into a zero accumulator, at (p, q): the sum over the 256
    hidden features. -/
theorem matmul1_at (l : FVec Ideal S4000x256 .bf16) (r : FVec Ideal S256x128 .bf16) (p : Fin 4000) (q : Fin 128) :
    matmul dot_S4000x256_S256x128_S4000x128_1_0_0_1_n_n none l r (constant S4000x128 .f32 0x00000000#32) (ix2 p q)
      = ∑ k : Fin 256, l (ix2 p k) * r (ix2 k q) := by
  refine (Ideal.matmul_constant_zero_apply dot_S4000x256_S256x128_S4000x128_1_0_0_1_n_n none l r (ix2 p q)).trans ?_
  rw [← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx (ix2 p q) ((ValueIdx.contrEquiv1 dot_S4000x256_S256x128_S4000x128_1_0_0_1_n_n 256 rfl rfl).symm k) = ix2 p k := funext fun a => Fin.ext (by
    match a with
    | ⟨0, _⟩ => exact matmul1_lhs_0 _ _
    | ⟨1, _⟩ => exact (matmul1_lhs_1 _ _).trans hk)
  have er : dot_S4000x256_S256x128_S4000x128_1_0_0_1_n_n.rhsIdx (ix2 p q) ((ValueIdx.contrEquiv1 dot_S4000x256_S256x128_S4000x128_1_0_0_1_n_n 256 rfl rfl).symm k) = ix2 k q := funext fun a => Fin.ext (by
    match a with
    | ⟨0, _⟩ => exact (matmul1_rhs_0 _ _).trans hk
    | ⟨1, _⟩ => exact matmul1_rhs_1 _ _)
  rw [el, er]

/-- THE FIRST LAYER'S BODY at (node p of the block, hidden feature q). -/
theorem pay0_at (x0 : Vec Ideal S4000x128 .f32) (x1 : Vec Ideal S4000x1 .f32) (x2 : Vec Ideal S4000x128 .f32)
    (x3 x4 : Vec Ideal S128x256 .f32) (x5 : Vec Ideal S1x256 .f32) (p : Fin 4000) (q : Fin 256) :
    k0_pay1 x0 x1 x2 x3 x4 x5 (ix2 p q)
      = max (((∑ k : Fin 128, (x0 (ix2 p k) * x1 (ix2 p (0 : Fin 1))) * x3 (ix2 k q)) + ∑ k : Fin 128, x2 (ix2 p k) * x4 (ix2 k q))
          + x5 (ix2 (0 : Fin 1) q)) (Ideal.ofBits .f32 0x00000000#32) := by
  unfold k0_pay1
  simp only [shapeCast_self]
  rw [truncf_apply, maximumf_apply, addf_apply, addf_apply, broadcast_apply]
  refine congrArg₂ max (congrArg₂ (· + ·) (congrArg₂ (· + ·) ?_ ?_) ?_) rfl
  · refine (matmul0_at _ _ p q).trans (Finset.sum_congr rfl fun k _ => ?_)
    rw [truncf_apply, truncf_apply, mulf_apply]
    exact congrArg (fun z => x0 (ix2 p k) * z * x3 (ix2 k q)) (broadcastTo_a1_ab_apply x1 broadcasts_S4000x1_S4000x128 p k)
  · refine (matmul0_at _ _ p q).trans (Finset.sum_congr rfl fun k _ => ?_)
    rw [truncf_apply, truncf_apply]
  · exact broadcastTo_1b_ab_apply x5 broadcasts_S1x256_S4000x256 p q

/-- THE SECOND LAYER'S BODY at (node p of the block, padded output feature q). -/
theorem pay1_at (x0 : Vec Ideal S4000x256 .f32) (x1 : Vec Ideal S4000x1 .f32) (x2 : Vec Ideal S4000x256 .bf16)
    (x3 x4 : Vec Ideal S256x128 .f32) (x5 : Vec Ideal S1x128 .f32) (p : Fin 4000) (q : Fin 128) :
    k1_pay1 x0 x1 x2 x3 x4 x5 (ix2 p q)
      = ((∑ k : Fin 256, (x0 (ix2 p k) * x1 (ix2 p (0 : Fin 1))) * x3 (ix2 k q)) + ∑ k : Fin 256, x2 (ix2 p k) * x4 (ix2 k q))
          + x5 (ix2 (0 : Fin 1) q) := by
  unfold k1_pay1
  simp only [shapeCast_self]
  rw [addf_apply, addf_apply]
  refine congrArg₂ (· + ·) (congrArg₂ (· + ·) ?_ ?_) ?_
  · refine (matmul1_at _ _ p q).trans (Finset.sum_congr rfl fun k _ => ?_)
    rw [truncf_apply, truncf_apply, mulf_apply]
    exact congrArg (fun z => x0 (ix2 p k) * z * x3 (ix2 k q)) (broadcastTo_a1_ab_apply x1 broadcasts_S4000x1_S4000x256 p k)
  · refine (matmul1_at _ _ p q).trans (Finset.sum_congr rfl fun k _ => ?_)
    rw [truncf_apply]
  · exact broadcastTo_1b_ab_apply x5 broadcasts_S1x128_S4000x128 p q

end Cert.KernelIdeal.Body

end
-- ==== Proof.SageBlocks.lean ====
/-
  From blocks to arrays: what each of the two grids leaves in its result array, as ONE function of the arrays the grid
  is entered with.

  Both grids have 25 points; point t handles nodes 4000·t … 4000·t + 3999. At point t the aggregated rows, the
  reciprocal column and the nodes' own rows are block t of their arrays, the two weight matrices and the bias row are
  whole, and the result is block t of the result array. So the entry (p, q) of the block written at point t is the
  layer's entry at node n = 4000·t + p and feature q, where a layer's entry is
      (∑ₖ (A (n,k) · r (n,0)) · Wl (k,q)  +  ∑ₖ X (n,k) · Wr (k,q))  +  b (0,q)
  (clamped below by 0 in the first layer). The 25 blocks tile the result array — node n lies in block n / 4000 — so the
  array ends holding that function everywhere.
-/
import proofs.«116263_j6373731468068_2_alg».proof.Proof.Gen.KernelIdeal.Frame
import proofs.«116263_j6373731468068_2_alg».proof.Proof.SageBody

set_option maxRecDepth 16384

noncomputable section

namespace Cert.KernelIdeal.Blocks

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## The two layers as functions of whole arrays -/

/-- The first layer's entry at node `n` and hidden feature `j`. -/
def hiddenAt (A : Vec Ideal S100000x128 .f32) (r : Vec Ideal S100000x1 .f32) (X : Vec Ideal S100000x128 .f32)
    (Wl Wr : Vec Ideal S128x256 .f32) (b : Vec Ideal S1x256 .f32) (n : Fin 100000) (j : Fin 256) : Elt Ideal .f32 :=
  max (((∑ k : Fin 128, (A (ix2 n k) * r (ix2 n (0 : Fin 1))) * Wl (ix2 k j)) + ∑ k : Fin 128, X (ix2 n k) * Wr (ix2 k j))
    + b (ix2 (0 : Fin 1) j)) (Ideal.ofBits .f32 0x00000000#32)

/-- The first layer as an array over (node, hidden feature). -/
def hidden (A : Vec Ideal S100000x128 .f32) (r : Vec Ideal S100000x1 .f32) (X : Vec Ideal S100000x128 .f32)
    (Wl Wr : Vec Ideal S128x256 .f32) (b : Vec Ideal S1x256 .f32) : Vec Ideal S100000x256 .bf16 :=
  fun i => hiddenAt A r X Wl Wr b ⟨(i 0).val, (i 0).isLt⟩ ⟨(i 1).val, (i 1).isLt⟩

/-- The second layer's entry at node `n` and (padded) output feature `j`. -/
def outAt (A : Vec Ideal S100000x256 .f32) (r : Vec Ideal S100000x1 .f32) (H : Vec Ideal S100000x256 .bf16)
    (Wl Wr : Vec Ideal S256x128 .f32) (b : Vec Ideal S1x128 .f32) (n : Fin 100000) (j : Fin 128) : Elt Ideal .f32 :=
  ((∑ k : Fin 256, (A (ix2 n k) * r (ix2 n (0 : Fin 1))) * Wl (ix2 k j)) + ∑ k : Fin 256, H (ix2 n k) * Wr (ix2 k j))
    + b (ix2 (0 : Fin 1) j)

/-- The second layer as an array over (node, padded output feature). -/
def out (A : Vec Ideal S100000x256 .f32) (r : Vec Ideal S100000x1 .f32) (H : Vec Ideal S100000x256 .bf16)
    (Wl Wr : Vec Ideal S256x128 .f32) (b : Vec Ideal S1x128 .f32) : Vec Ideal S100000x128 .f32 :=
  fun i => outAt A r H Wl Wr b ⟨(i 0).val, (i 0).isLt⟩ ⟨(i 1).val, (i 1).isLt⟩

variable (V : (c : Dev nD) → (b : Ref sig .tc) → Buf (Elt Ideal) ((c : Thread nD τ).loc b))

/-! ## The first grid -/

/-- The printed index maps over the 25 points: the three node-blocked inputs move with the result's block along the
    nodes, every window sits at block 0 along the features, and the weights and bias stay at block 0. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 24 ∧ win0_6.index t (1 : Fin 2) = 0 :=
  (by decide +kernel : ∀ t : Fin grid0.N, _)

/-- Every one of the 25 node blocks is some point's. -/
theorem idx_onto0 : ∀ q0 : Fin 25, ∃ t : Fin cfg0.N, win0_6.index t = ![q0.val, 0] :=
  (by decide +kernel : ∀ q0 : Fin 25, ∃ t : Fin grid0.N, win0_6.index t = ![q0.val, 0])

/-- WHAT POINT `t` WRITES BACK is block `t` of the first layer of the arrays the grid is entered with. -/
theorem flushed0_eq (c : Dev nD) (t : Fin cfg0.N) :
    (dat0 V c).flushed 6 t = ((cfg0.win 6).blk t).view.read (Elt Ideal)
      (hidden (V c main_v21) (V c main_v11) (V c main_arg0) (V c main_v22) (V c main_v23) (V c main_v24)) := by
  show (cfg0.win 6).cut (grid0.coords t) ((dat0 V c).after 6 t) = _
  rw [after0_6]
  unfold out0_6
  rw [View.canon_unit_zero hz]
  simp only [View.ld_unit_zero (S := S4000x128) hz, View.ld_unit_zero (S := S4000x1) hz, View.ld_unit_zero (S := S128x256) hz,
    View.ld_unit_zero (S := S1x256) hz]
  obtain ⟨e00, e01, e10, e11, e20, e21, e30, e31, e40, e41, e50, e51, hle, e61⟩ := idx_facts0 t
  funext y
  obtain ⟨p, q, rfl⟩ : ∃ (p : Fin 4000) (q : Fin 256), y = ix2 p q := ⟨y 0, y 1, eq_ix2 y⟩
  have hp : p.val < 4000 := p.isLt
  have hq : q.val < 256 := q.isLt
  have hn : win0_6.index t (0 : Fin 2) * 4000 + p.val < 100000 := by omega
  have hi : ((cfg0.win 6).blk t).view.emb (ix2 p q) = ix2 (⟨win0_6.index t (0 : Fin 2) * 4000 + p.val, hn⟩ : Fin 100000) q := by
    funext a; apply Fin.ext
    match a with
    | ⟨0, _⟩ => show win0_6.index t (0 : Fin 2) * 4000 + 1 * p.val = win0_6.index t (0 : Fin 2) * 4000 + p.val; omega
    | ⟨1, _⟩ => show win0_6.index t (1 : Fin 2) * 256 + 1 * q.val = q.val; omega
  show k0_pay1 (iblk0 V c 0 t) (iblk0 V c 1 t) (iblk0 V c 2 t) (iblk0 V c 3 t) (iblk0 V c 4 t) (iblk0 V c 5 t) (ix2 p q)
    = hidden (V c main_v21) (V c main_v11) (V c main_arg0) (V c main_v22) (V c main_v23) (V c main_v24) (((cfg0.win 6).blk t).view.emb (ix2 p q))
  rw [hi]
  refine (pay0_at (iblk0 V c 0 t) (iblk0 V c 1 t) (iblk0 V c 2 t) (iblk0 V c 3 t) (iblk0 V c 4 t) (iblk0 V c 5 t) p q).trans ?_
  show _ = hiddenAt (V c main_v21) (V c main_v11) (V c main_arg0) (V c main_v22) (V c main_v23) (V c main_v24) ⟨win0_6.index t (0 : Fin 2) * 4000 + p.val, hn⟩ q
  unfold hiddenAt
  have r0 : ∀ k : Fin 128, iblk0 V c 0 t (ix2 p k) = V c main_v21 (ix2 (⟨win0_6.index t (0 : Fin 2) * 4000 + p.val, hn⟩ : Fin 100000) k) := fun k => by
    show V c main_v21 (((cfg0.win 0).blk t).view.emb (ix2 p k)) = _
    refine congrArg (V c main_v21) (funext fun a => Fin.ext ?_)
    have hk : k.val < 128 := k.isLt
    match a with
    | ⟨0, _⟩ => show win0_0.index t (0 : Fin 2) * 4000 + 1 * p.val = win0_6.index t (0 : Fin 2) * 4000 + p.val; omega
    | ⟨1, _⟩ => show win0_0.index t (1 : Fin 2) * 128 + 1 * k.val = k.val; omega
  have r1 : iblk0 V c 1 t (ix2 p (0 : Fin 1)) = V c main_v11 (ix2 (⟨win0_6.index t (0 : Fin 2) * 4000 + p.val, hn⟩ : Fin 100000) (0 : Fin 1)) := by
    show V c main_v11 (((cfg0.win 1).blk t).view.emb (ix2 p (0 : Fin 1))) = _
    refine congrArg (V c main_v11) (funext fun a => Fin.ext ?_)
    match a with
    | ⟨0, _⟩ => show win0_1.index t (0 : Fin 2) * 4000 + 1 * p.val = win0_6.index t (0 : Fin 2) * 4000 + p.val; omega
    | ⟨1, _⟩ => show win0_1.index t (1 : Fin 2) * 1 + 1 * 0 = 0; omega
  have r2 : ∀ k : Fin 128, iblk0 V c 2 t (ix2 p k) = V c main_arg0 (ix2 (⟨win0_6.index t (0 : Fin 2) * 4000 + p.val, hn⟩ : Fin 100000) k) := fun k => by
    show V c main_arg0 (((cfg0.win 2).blk t).view.emb (ix2 p k)) = _
    refine congrArg (V c main_arg0) (funext fun a => Fin.ext ?_)
    have hk : k.val < 128 := k.isLt
    match a with
    | ⟨0, _⟩ => show win0_2.index t (0 : Fin 2) * 4000 + 1 * p.val = win0_6.index t (0 : Fin 2) * 4000 + p.val; omega
    | ⟨1, _⟩ => show win0_2.index t (1 : Fin 2) * 128 + 1 * k.val = k.val; omega
  have r3 : ∀ k : Fin 128, iblk0 V c 3 t (ix2 k q) = V c main_v22 (ix2 k q) := fun k => by
    show V c main_v22 (((cfg0.win 3).blk t).view.emb (ix2 k q)) = _
    refine congrArg (V c main_v22) (funext fun a => Fin.ext ?_)
    match a with
    | ⟨0, _⟩ => show win0_3.index t (0 : Fin 2) * 128 + 1 * k.val = k.val; omega
    | ⟨1, _⟩ => show win0_3.index t (1 : Fin 2) * 256 + 1 * q.val = q.val; omega
  have r4 : ∀ k : Fin 128, iblk0 V c 4 t (ix2 k q) = V c main_v23 (ix2 k q) := fun k => by
    show V c main_v23 (((cfg0.win 4).blk t).view.emb (ix2 k q)) = _
    refine congrArg (V c main_v23) (funext fun a => Fin.ext ?_)
    match a with
    | ⟨0, _⟩ => show win0_4.index t (0 : Fin 2) * 128 + 1 * k.val = k.val; omega
    | ⟨1, _⟩ => show win0_4.index t (1 : Fin 2) * 256 + 1 * q.val = q.val; omega
  have r5 : iblk0 V c 5 t (ix2 (0 : Fin 1) q) = V c main_v24 (ix2 (0 : Fin 1) q) := by
    show V c main_v24 (((cfg0.win 5).blk t).view.emb (ix2 (0 : Fin 1) q)) = _
    refine congrArg (V c main_v24) (funext fun a => Fin.ext ?_)
    match a with
    | ⟨0, _⟩ => show win0_5.index t (0 : Fin 2) * 1 + 1 * 0 = 0; omega
    | ⟨1, _⟩ => show win0_5.index t (1 : Fin 2) * 256 + 1 * q.val = q.val; omega
  simp only [r0, r1, r2, r3, r4, r5]

/-- An index of the result array is in point `t`'s block iff each coordinate is in the block's range on its axis. -/
theorem mem_blk0 (t : Fin cfg0.N) (i : S100000x256.Idx) :
    i ∈ ((cfg0.win 6).blk t).view.set ↔ ∀ a : Fin 2, win0_6.index t a * S4000x256.size a ≤ (i a).val ∧ (i a).val < win0_6.index t a * S4000x256.size a + S4000x256.size a := by
  show i ∈ ((View.whole main_v25).slice (win0_6.rect t)).set ↔ _
  rw [View.set_slice_whole, Rect.mem_set_unit]
  exact Iff.rfl

/-- The 25 blocks cover the result array: node n is in block n / 4000. -/
theorem cover0 (i : S100000x256.Idx) : ∃ t : Fin cfg0.N, (cfg0.win 6).flush t = true ∧ i ∈ ((cfg0.win 6).blk t).view.set := by
  have hi0 : (i 0).val < 100000 := (i 0).isLt
  have hi1 : (i 1).val < 256 := (i 1).isLt
  obtain ⟨t, ht⟩ := idx_onto0 ⟨(i 0).val / 4000, by omega⟩
  have q0 : win0_6.index t (0 : Fin 2) = (i 0).val / 4000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 256 ≤ (i 1).val ∧ (i 1).val < win0_6.index t (1 : Fin 2) * 256 + 256; omega

/-- THE HIDDEN ARRAY after the first grid: the first layer of the arrays the grid is entered with. -/
theorem final0 (c : Dev nD) : (dat0 V c).arrAt 6 cfg0.N
    = hidden (V c main_v21) (V c main_v11) (V c main_arg0) (V c main_v22) (V c main_v23) (V c main_v24) :=
  (dat0 V c).arrAt_eq_of_cover 6 _ (fun t _ => flushed0_eq V c t) cover0

/-! ## The second grid -/

/-- The printed index maps over the 25 points, as for the first grid. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 24 ∧ win1_6.index t (1 : Fin 2) = 0 :=
  (by decide +kernel : ∀ t : Fin grid1.N, _)

/-- Every one of the 25 node blocks is some point's. -/
theorem idx_onto1 : ∀ q0 : Fin 25, ∃ t : Fin cfg1.N, win1_6.index t = ![q0.val, 0] :=
  (by decide +kernel : ∀ q0 : Fin 25, ∃ t : Fin grid1.N, win1_6.index t = ![q0.val, 0])

/-- WHAT POINT `t` WRITES BACK is block `t` of the second layer of the arrays the grid is entered with. -/
theorem flushed1_eq (c : Dev nD) (t : Fin cfg1.N) :
    (dat1 V c).flushed 6 t = ((cfg1.win 6).blk t).view.read (Elt Ideal)
      (out (V c main_v36) (V c main_v11) (V c main_v25) (V c main_v40) (V c main_v41) (V c main_v42)) := by
  show (cfg1.win 6).cut (grid1.coords t) ((dat1 V c).after 6 t) = _
  rw [after1_6]
  unfold out1_6
  rw [View.canon_unit_zero hz]
  simp only [View.ld_unit_zero (S := S4000x256) hz, View.ld_unit_zero (S := S4000x1) hz, View.ld_unit_zero (S := S256x128) hz,
    View.ld_unit_zero (S := S1x128) hz]
  obtain ⟨e00, e01, e10, e11, e20, e21, e30, e31, e40, e41, e50, e51, hle, e61⟩ := idx_facts1 t
  funext y
  obtain ⟨p, q, rfl⟩ : ∃ (p : Fin 4000) (q : Fin 128), y = ix2 p q := ⟨y 0, y 1, eq_ix2 y⟩
  have hp : p.val < 4000 := p.isLt
  have hq : q.val < 128 := q.isLt
  have hn : win1_6.index t (0 : Fin 2) * 4000 + p.val < 100000 := by omega
  have hi : ((cfg1.win 6).blk t).view.emb (ix2 p q) = ix2 (⟨win1_6.index t (0 : Fin 2) * 4000 + p.val, hn⟩ : Fin 100000) q := by
    funext a; apply Fin.ext
    match a with
    | ⟨0, _⟩ => show win1_6.index t (0 : Fin 2) * 4000 + 1 * p.val = win1_6.index t (0 : Fin 2) * 4000 + p.val; omega
    | ⟨1, _⟩ => show win1_6.index t (1 : Fin 2) * 128 + 1 * q.val = q.val; omega
  show k1_pay1 (iblk1 V c 0 t) (iblk1 V c 1 t) (iblk1 V c 2 t) (iblk1 V c 3 t) (iblk1 V c 4 t) (iblk1 V c 5 t) (ix2 p q)
    = out (V c main_v36) (V c main_v11) (V c main_v25) (V c main_v40) (V c main_v41) (V c main_v42) (((cfg1.win 6).blk t).view.emb (ix2 p q))
  rw [hi]
  refine (pay1_at (iblk1 V c 0 t) (iblk1 V c 1 t) (iblk1 V c 2 t) (iblk1 V c 3 t) (iblk1 V c 4 t) (iblk1 V c 5 t) p q).trans ?_
  show _ = outAt (V c main_v36) (V c main_v11) (V c main_v25) (V c main_v40) (V c main_v41) (V c main_v42) ⟨win1_6.index t (0 : Fin 2) * 4000 + p.val, hn⟩ q
  unfold outAt
  have r0 : ∀ k : Fin 256, iblk1 V c 0 t (ix2 p k) = V c main_v36 (ix2 (⟨win1_6.index t (0 : Fin 2) * 4000 + p.val, hn⟩ : Fin 100000) k) := fun k => by
    show V c main_v36 (((cfg1.win 0).blk t).view.emb (ix2 p k)) = _
    refine congrArg (V c main_v36) (funext fun a => Fin.ext ?_)
    have hk : k.val < 256 := k.isLt
    match a with
    | ⟨0, _⟩ => show win1_0.index t (0 : Fin 2) * 4000 + 1 * p.val = win1_6.index t (0 : Fin 2) * 4000 + p.val; omega
    | ⟨1, _⟩ => show win1_0.index t (1 : Fin 2) * 256 + 1 * k.val = k.val; omega
  have r1 : iblk1 V c 1 t (ix2 p (0 : Fin 1)) = V c main_v11 (ix2 (⟨win1_6.index t (0 : Fin 2) * 4000 + p.val, hn⟩ : Fin 100000) (0 : Fin 1)) := by
    show V c main_v11 (((cfg1.win 1).blk t).view.emb (ix2 p (0 : Fin 1))) = _
    refine congrArg (V c main_v11) (funext fun a => Fin.ext ?_)
    match a with
    | ⟨0, _⟩ => show win1_1.index t (0 : Fin 2) * 4000 + 1 * p.val = win1_6.index t (0 : Fin 2) * 4000 + p.val; omega
    | ⟨1, _⟩ => show win1_1.index t (1 : Fin 2) * 1 + 1 * 0 = 0; omega
  have r2 : ∀ k : Fin 256, iblk1 V c 2 t (ix2 p k) = V c main_v25 (ix2 (⟨win1_6.index t (0 : Fin 2) * 4000 + p.val, hn⟩ : Fin 100000) k) := fun k => by
    show V c main_v25 (((cfg1.win 2).blk t).view.emb (ix2 p k)) = _
    refine congrArg (V c main_v25) (funext fun a => Fin.ext ?_)
    have hk : k.val < 256 := k.isLt
    match a with
    | ⟨0, _⟩ => show win1_2.index t (0 : Fin 2) * 4000 + 1 * p.val = win1_6.index t (0 : Fin 2) * 4000 + p.val; omega
    | ⟨1, _⟩ => show win1_2.index t (1 : Fin 2) * 256 + 1 * k.val = k.val; omega
  have r3 : ∀ k : Fin 256, iblk1 V c 3 t (ix2 k q) = V c main_v40 (ix2 k q) := fun k => by
    show V c main_v40 (((cfg1.win 3).blk t).view.emb (ix2 k q)) = _
    refine congrArg (V c main_v40) (funext fun a => Fin.ext ?_)
    match a with
    | ⟨0, _⟩ => show win1_3.index t (0 : Fin 2) * 256 + 1 * k.val = k.val; omega
    | ⟨1, _⟩ => show win1_3.index t (1 : Fin 2) * 128 + 1 * q.val = q.val; omega
  have r4 : ∀ k : Fin 256, iblk1 V c 4 t (ix2 k q) = V c main_v41 (ix2 k q) := fun k => by
    show V c main_v41 (((cfg1.win 4).blk t).view.emb (ix2 k q)) = _
    refine congrArg (V c main_v41) (funext fun a => Fin.ext ?_)
    match a with
    | ⟨0, _⟩ => show win1_4.index t (0 : Fin 2) * 256 + 1 * k.val = k.val; omega
    | ⟨1, _⟩ => show win1_4.index t (1 : Fin 2) * 128 + 1 * q.val = q.val; omega
  have r5 : iblk1 V c 5 t (ix2 (0 : Fin 1) q) = V c main_v42 (ix2 (0 : Fin 1) q) := by
    show V c main_v42 (((cfg1.win 5).blk t).view.emb (ix2 (0 : Fin 1) q)) = _
    refine congrArg (V c main_v42) (funext fun a => Fin.ext ?_)
    match a with
    | ⟨0, _⟩ => show win1_5.index t (0 : Fin 2) * 1 + 1 * 0 = 0; omega
    | ⟨1, _⟩ => show win1_5.index t (1 : Fin 2) * 128 + 1 * q.val = q.val; omega
  simp only [r0, r1, r2, r3, r4, r5]

/-- An index of the result array is in point `t`'s block iff each coordinate is in the block's range on its axis. -/
theorem mem_blk1 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v43).slice (win1_6.rect t)).set ↔ _
  rw [View.set_slice_whole, Rect.mem_set_unit]
  exact Iff.rfl

/-- The 25 blocks cover the result array: node n is in block n / 4000. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto1 ⟨(i 0).val / 4000, by omega⟩
  have q0 : win1_6.index t (0 : Fin 2) = (i 0).val / 4000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- THE PADDED OUTPUT ARRAY after the second grid: the second layer of the arrays the grid is entered with. -/
theorem final1 (c : Dev nD) : (dat1 V c).arrAt 6 cfg1.N
    = out (V c main_v36) (V c main_v11) (V c main_v25) (V c main_v40) (V c main_v41) (V c main_v42) :=
  (dat1 V c).arrAt_eq_of_cover 6 _ (fun t _ => flushed1_eq V c t) cover1

end Cert.KernelIdeal.Blocks

end
-- ==== Proof.SageAlgebra.lean ====
/-
  The arithmetic that joins the two programs, on the extended reals.

  A mean over a node's in-neighbours is written in two ways. One program divides each aggregated feature by the clamped
  in-degree M = max(count, 1); the other multiplies it by the reciprocal 1 / M computed once per node. On the extended
  reals a quotient x / y is x · y⁻¹ whenever y ≠ 0, and M ≥ 1 is never 0, so x / M = x · M⁻¹ and 1 / M = M⁻¹: the two
  spellings agree for EVERY extended real x, the infinities included, and no finiteness of the inputs is used.

  The two programs also add the bias at different places — (P + Q) + b against (P + b) + Q for the two matrix
  products P, Q — which is commutativity and associativity of + (the extended reals are a commutative monoid under +).
-/
import Idealize.ShloMosaic.PureOps.Ideal
import Idealize.ShloMosaic.PureOps.Ideal.Laws

noncomputable section

namespace Cert.SageAlgebra

open Idealize.ShloMosaic

/-- The pattern of `1.0` denotes the extended real 1. -/
theorem ofBits_one : Ideal.ofBits .f32 0x3F800000#32 = 1 := by
  simp [Ideal.ofBits, Ideal.ieee, -EReal.coe_mul]; norm_num

/-- A count clamped below by 1 is positive, so it is not 0. -/
theorem clamp_ne_zero (c : EReal) : max c (1 : EReal) ≠ 0 :=
  ne_of_gt (lt_of_lt_of_le zero_lt_one (le_max_right c 1))

/-- Dividing by a clamped count is multiplying by its inverse, for every extended real. -/
theorem div_clamp (x c : EReal) : Ideal.div x (max c 1) = x * (max c 1)⁻¹ := by
  rw [Ideal.div, if_neg (clamp_ne_zero c)]

/-- Multiplying by the reciprocal of a clamped count is dividing by it. -/
theorem mul_recip_clamp (x c : EReal) : x * Ideal.div 1 (max c 1) = Ideal.div x (max c 1) := by
  rw [div_clamp, div_clamp, one_mul]

/-- One entry of a layer: the aggregated row `a` scaled by the reciprocal of the clamped count, times a weight column,
    plus the node's own row `x` times a second weight column, plus the bias — against the same with the row divided by
    the clamped count and the bias added before the second product. -/
theorem layer_entry {K : Type} [Fintype K] (a x wl wr : K → EReal) (c b : EReal) :
    ((∑ k, (a k * Ideal.div 1 (max c 1)) * wl k) + ∑ k, x k * wr k) + b
      = ((∑ k, Ideal.div (a k) (max c 1) * wl k) + b) + ∑ k, x k * wr k := by
  simp only [mul_recip_clamp]
  exact add_right_comm _ _ _

end Cert.SageAlgebra

end
-- ==== Proof.SageEntry.lean ====
/-
  One entry of each layer, in the two spellings.

  The grid's form of a layer entry (node n, feature j) uses the reciprocal column r, weights already transposed to
  (input feature, output feature) and the bias as a row; the plain form divides by the clamped in-degree, reads the
  weights as given, (output feature, input feature), and adds the bias before the second product. Given what r, the
  transposed weights and the bias row read as at the indices involved, the two forms are equal on the extended reals
  for every value of the aggregated rows and the nodes' own rows.
-/
import proofs.«116263_j6373731468068_2_alg».proof.Proof.SageBlocks
import proofs.«116263_j6373731468068_2_alg».proof.Proof.SageAlgebra

noncomputable section

namespace Cert.KernelIdeal.Blocks

open Cert.KernelIdeal Idealize.ShloMosaic Idealize.ShloMosaic.ValueIdx Cert.SageAlgebra

/-- The first layer's entry: reciprocal-and-transposed form against divided-and-plain form. -/
theorem hiddenAt_eq (A : Vec Ideal S100000x128 .f32) (r cnt : Vec Ideal S100000x1 .f32) (X : Vec Ideal S100000x128 .f32)
    (Wl Wr : Vec Ideal S128x256 .f32) (b : Vec Ideal S1x256 .f32)
    (wl wr : Vec Ideal S256x128 .f32) (bv : Vec Ideal S256 .f32) (n : Fin 100000) (j : Fin 256)
    (hr : r (ix2 n (0 : Fin 1)) = Ideal.div 1 (max (cnt (ix2 n (0 : Fin 1))) 1))
    (hl : ∀ k : Fin 128, Wl (ix2 k j) = wl (ix2 j k)) (hw : ∀ k : Fin 128, Wr (ix2 k j) = wr (ix2 j k))
    (hb : b (ix2 (0 : Fin 1) j) = bv (ix1 j)) :
    hiddenAt A r X Wl Wr b n j
      = max (((∑ k : Fin 128, Ideal.div (A (ix2 n k)) (max (cnt (ix2 n (0 : Fin 1))) 1) * wl (ix2 j k)) + bv (ix1 j))
          + ∑ k : Fin 128, X (ix2 n k) * wr (ix2 j k)) (Ideal.ofBits .f32 0x00000000#32) := by
  unfold hiddenAt
  simp only [hr, hl, hw, hb]
  exact congrArg (fun z => max z (Ideal.ofBits .f32 0x00000000#32))
    (layer_entry (fun k : Fin 128 => A (ix2 n k)) (fun k => X (ix2 n k)) (fun k => wl (ix2 j k)) (fun k => wr (ix2 j k))
      (cnt (ix2 n (0 : Fin 1))) (bv (ix1 j)))

/-- The second layer's entry at a padded feature below 64: reciprocal-and-transposed form against divided-and-plain
    form. -/
theorem outAt_eq (A : Vec Ideal S100000x256 .f32) (r cnt : Vec Ideal S100000x1 .f32) (H : Vec Ideal S100000x256 .bf16)
    (Wl Wr : Vec Ideal S256x128 .f32) (b : Vec Ideal S1x128 .f32)
    (wl wr : Vec Ideal S64x256 .f32) (bv : Vec Ideal S64 .f32) (n : Fin 100000) (j' : Fin 128) (j : Fin 64)
    (hr : r (ix2 n (0 : Fin 1)) = Ideal.div 1 (max (cnt (ix2 n (0 : Fin 1))) 1))
    (hl : ∀ k : Fin 256, Wl (ix2 k j') = wl (ix2 j k)) (hw : ∀ k : Fin 256, Wr (ix2 k j') = wr (ix2 j k))
    (hb : b (ix2 (0 : Fin 1) j') = bv (ix1 j)) :
    outAt A r H Wl Wr b n j'
      = ((∑ k : Fin 256, Ideal.div (A (ix2 n k)) (max (cnt (ix2 n (0 : Fin 1))) 1) * wl (ix2 j k)) + bv (ix1 j))
          + ∑ k : Fin 256, H (ix2 n k) * wr (ix2 j k) := by
  unfold outAt
  simp only [hr, hl, hw, hb]
  exact layer_entry (fun k : Fin 256 => A (ix2 n k)) (fun k => H (ix2 n k)) (fun k => wl (ix2 j k)) (fun k => wr (ix2 j k))
      (cnt (ix2 n (0 : Fin 1))) (bv (ix1 j))

end Cert.KernelIdeal.Blocks

end
-- ==== Proof.SageBridge.lean ====
/-
  The two programs compute one function.

  Both aggregate over the same edge list with the same gather and scatter-add, so the in-degrees and the neighbour
  sums are the SAME terms of the arguments on both sides and are never opened. What differs is the arithmetic after
  them: one program multiplies the neighbour sums by the reciprocal of the clamped in-degree inside two grids over
  blocks of 4000 nodes, with weights transposed (and, in the second layer, zero-padded from 64 to 128 output features
  and sliced back) and the bias added last; the other divides by the clamped in-degree and adds the bias before the
  second product. Entry by entry the two are equal on the extended reals (`hiddenAt_eq`, `outAt_eq`): first the hidden
  array, as a whole array, and then — the hidden array being what the second aggregation gathers — the result.
-/
import proofs.«116263_j6373731468068_2_alg».proof.Proof.KernelRun
import proofs.«116263_j6373731468068_2_alg».proof.Proof.RefAt
import proofs.«116263_j6373731468068_2_alg».proof.Proof.SageEntry
import Idealize.ShloMosaic.Lib.KernelVsHost
import Idealize.ShloMosaic.Lib.ValueLayout

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.RunValue Cert.KernelIdeal.Blocks Cert.SageAlgebra
open Idealize.ShloMosaic.Pipeline (Dat)

/-! ## The shared terms, and the layout operations read at an index -/

section Terms

variable (x0 : (⟨S100000x128, .f32⟩ : BufTy).Contents (Elt Ideal)) (x1 : (⟨S2x640000, .i32⟩ : BufTy).Contents (Elt Ideal))
  (x2 x4 : (⟨S256x128, .f32⟩ : BufTy).Contents (Elt Ideal)) (x3 : (⟨S256, .f32⟩ : BufTy).Contents (Elt Ideal))
  (x5 x7 : (⟨S64x256, .f32⟩ : BufTy).Contents (Elt Ideal)) (x6 : (⟨S64, .f32⟩ : BufTy).Contents (Elt Ideal))

/-- The first neighbour sum is one term on both sides. -/
theorem nbrSum128_eq :
    nbrSum128 (F := Ideal) x0 (edgeSrc x1) (edgeDst x1) = Cert.ReferenceIdeal.Read.val_main_v13 (F := Ideal) x0 x1 := rfl

/-- The second neighbour sum, of the hidden array, is one term on both sides (widening a gathered row is the identity
    on extended reals). -/
theorem nbrSum256_eq :
    nbrSum256 (F := Ideal) (Cert.ReferenceIdeal.Read.val_main_v30 (F := Ideal) x0 x1 x2 x3 x4) (edgeSrc x1) (edgeDst x1)
      = Cert.ReferenceIdeal.Read.val_main_v40 (F := Ideal) x0 x1 x2 x3 x4 := rfl

/-- The clamped in-degree the first division uses, at a node. -/
theorem clampDeg_at (n : Fin 100000) :
    Cert.ReferenceIdeal.Read.val_main_v19 (F := Ideal) x1 (ix2 n (0 : Fin 1))
      = max (Cert.ReferenceIdeal.Read.val_main_v17 (F := Ideal) x1 (ix2 n (0 : Fin 1))) 1 := by
  rw [Cert.ReferenceIdeal.RefValue.count_eq, maximumf_apply, Cert.ReferenceIdeal.RefValue.one_at, ofBits_one]

/-- The clamped in-degree the second division uses: the same count, computed again. -/
theorem clampDeg2_at (n : Fin 100000) :
    Cert.ReferenceIdeal.Read.val_main_v46 (F := Ideal) x1 (ix2 n (0 : Fin 1))
      = max (Cert.ReferenceIdeal.Read.val_main_v17 (F := Ideal) x1 (ix2 n (0 : Fin 1))) 1 := by
  rw [Cert.ReferenceIdeal.RefValue.count2_eq_count1]
  exact clampDeg_at x1 n

/-- The reciprocal column is one divided by the clamped in-degree, as arrays: the same terms on both sides. -/
theorem invDeg_eq :
    invDeg (F := Ideal) (edgeDst x1)
      = Host.divf (F := Ideal) (s := S100000x1) (φ := .f32) (Cert.ReferenceIdeal.Read.val_main_v18 (F := Ideal)) (Cert.ReferenceIdeal.Read.val_main_v19 (F := Ideal) x1) := rfl

/-- The host's quotient of two arrays, at an index, is the quotient of the entries. -/
theorem hostDivf_at {s : Shape} (a b : FVec Ideal s .f32) (i : s.Idx) :
    Host.divf (F := Ideal) a b i = Ideal.div (a i) (b i) := rfl

/-- The reciprocal column at a node: one over the in-degree clamped below by one. -/
theorem invDeg_at (n : Fin 100000) :
    invDeg (F := Ideal) (edgeDst x1) (ix2 n (0 : Fin 1))
      = Ideal.div 1 (max (Cert.ReferenceIdeal.Read.val_main_v17 (F := Ideal) x1 (ix2 n (0 : Fin 1))) 1) := by
  rw [invDeg_eq, hostDivf_at, Cert.ReferenceIdeal.RefValue.one_at, clampDeg_at, ofBits_one]

/-- A 64-row weight matrix zero-padded to 128 rows and transposed, read at (input feature k, output feature j < 64):
    the matrix at (j, k). -/
theorem padT_at (w : (⟨S64x256, .f32⟩ : BufTy).Contents (Elt Ideal)) (k : Fin 256) (j' : Fin 128) (j : Fin 64) (hj : j'.val = j.val) :
    padT (F := Ideal) w (ix2 k j') = w (ix2 j k) := by
  unfold padT
  refine (transpose_ix2_apply _ transposes_S128x256_S256x128_1_0 k j').trans ?_
  refine pad_apply_of_inside _ _ _ w _ pads_S64x256_S128x256_0640_000 h_S_ (ix2 j' k) (ix2 j k) fun a => ?_
  match a with
  | ⟨0, _⟩ => show j'.val = 0 + j.val * (0 + 1); omega
  | ⟨1, _⟩ => show k.val = 0 + k.val * (0 + 1); omega

/-- A 64-entry bias zero-padded to 128 entries, as one row, read at an entry j < 64: the bias at j. -/
theorem padRow_at (b : (⟨S64, .f32⟩ : BufTy).Contents (Elt Ideal)) (j' : Fin 128) (j : Fin 64) (hj : j'.val = j.val) :
    padRow (F := Ideal) b (ix2 (0 : Fin 1) j') = b (ix1 j) := by
  unfold padRow
  refine (shapeCast_a_1a_apply _ shapeCasts_S128_S1x128 (0 : Fin 1) j').trans ?_
  refine pad_apply_of_inside _ _ _ b _ pads_S64_S128_0640 h_S_ (ix1 j') (ix1 j) fun a => ?_
  match a with
  | ⟨0, _⟩ => show j'.val = 0 + j.val * (0 + 1); omega

end Terms

/-! ## The hidden array, and the result -/

variable (m : (ℓ : Loc nD τ sig) → Buf (Elt Ideal) ℓ) (ρ : Dev nD → PrngReg)

/-- THE HIDDEN ARRAY the first grid leaves is the reference's hidden stage of the launched arguments. -/
theorem hidden_eq (c : Dev nD) :
    (dat0 (V1 m ρ) c).arrAt 6 cfg0.N
      = Cert.ReferenceIdeal.Read.val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [final0 (V1 m ρ) c]
  funext i
  obtain ⟨n, j, rfl⟩ : ∃ (n : Fin 100000) (j : Fin 256), i = ix2 n j := ⟨i 0, i 1, eq_ix2 i⟩
  rw [Cert.ReferenceIdeal.RefValue.hidden_at]
  show hiddenAt (V1 m ρ c main_v21) (V1 m ρ c main_v11) (V1 m ρ c main_arg0) (V1 m ρ c main_v22) (V1 m ρ c main_v23) (V1 m ρ c main_v24) n j = _
  rw [V1_main_v21, V1_main_v11, V1_main_arg0, V1_main_v22, V1_main_v23, V1_main_v24, nbrSum128_eq]
  refine (hiddenAt_eq _ _ (Cert.ReferenceIdeal.Read.val_main_v17 (F := Ideal) (m ((c : Thread nD τ).loc main_arg1))) _ _ _ _
    (m ((c : Thread nD τ).loc main_arg2)) (m ((c : Thread nD τ).loc main_arg4)) (m ((c : Thread nD τ).loc main_arg3)) n j
    (invDeg_at _ n)
    (fun k => transpose_ix2_apply _ transposes_S256x128_S128x256_1_0 k j)
    (fun k => transpose_ix2_apply _ transposes_S256x128_S128x256_1_0 k j)
    (shapeCast_a_1a_apply _ shapeCasts_S256_S1x256 (0 : Fin 1) j)).trans ?_
  rw [clampDeg_at]

/-- THE RESULT: the last boundary's contents at the result buffer are the reference's last stage of the launched
    arguments. -/
theorem kernel_value (c : Dev nD) :
    (W11 m ρ c (Proc.devRef .tc main_v44) : S100000x64.Idx → Elt Ideal .f32)
      = Cert.ReferenceIdeal.Read.val_main_v56 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [W11_main_v44, W10_main_v43, final1 (V9 m ρ) c]
  funext i
  obtain ⟨n, j, rfl⟩ : ∃ (n : Fin 100000) (j : Fin 64), i = ix2 n j := ⟨i 0, i 1, eq_ix2 i⟩
  have hj : j.val < 128 := by have := j.isLt; omega
  rw [Cert.ReferenceIdeal.RefValue.out_at]
  refine (slice2_axis1_apply 0 _ slices_S100000x128_S100000x64_0_0 n j (⟨j.val, hj⟩ : Fin 128) (by show j.val = 0 + j.val; omega)).trans ?_
  show outAt (V9 m ρ c main_v36) (V9 m ρ c main_v11) (V9 m ρ c main_v25) (V9 m ρ c main_v40) (V9 m ρ c main_v41) (V9 m ρ c main_v42) n ⟨j.val, hj⟩ = _
  rw [V9_main_v36_eq, V9_main_v11, V9_main_v25, V9_main_v40, V9_main_v41, V9_main_v42, hidden_eq, nbrSum256_eq]
  refine (outAt_eq _ _ (Cert.ReferenceIdeal.Read.val_main_v17 (F := Ideal) (m ((c : Thread nD τ).loc main_arg1))) _ _ _ _
    (m ((c : Thread nD τ).loc main_arg5)) (m ((c : Thread nD τ).loc main_arg7)) (m ((c : Thread nD τ).loc main_arg6)) n ⟨j.val, hj⟩ j
    (invDeg_at _ n)
    (fun k => padT_at _ k ⟨j.val, hj⟩ j rfl)
    (fun k => padT_at _ k ⟨j.val, hj⟩ j rfl)
    (padRow_at _ ⟨j.val, hj⟩ j rfl)).trans ?_
  rw [clampDeg2_at]

end Cert.Bridge

end
-- ==== Proof.lean ====
/-
  A two-layer mean-aggregation graph network over 100000 nodes and 640000 edges, against its plain reference.

  Each layer sends a node's features X to  mean · Wlᵀ + b + X · Wrᵀ,  where mean is the sum of the in-neighbours' rows
  divided by the in-degree clamped below by 1; the first layer is followed by a clamp at 0. One program computes the
  neighbour sums on the host and the rest in two grids over blocks of 4000 nodes, multiplying by the reciprocal of the
  clamped in-degree, with the weights transposed beforehand, the second layer's 64 output features zero-padded to 128
  and sliced back, and the bias added last; the reference divides by the clamped in-degree and adds the bias before
  the second product.

  On the extended reals the two agree for all inputs: the clamped in-degree is at least 1, hence not 0, so dividing by
  it is multiplying by its inverse and its reciprocal is that inverse (Proof/SageAlgebra.lean); the bias moves by
  commutativity and associativity of +; changes of float format are the identity; a matrix product into a zero
  accumulator is the plain sum (Proof/SageBody.lean); the 25 blocks tile each result array (Proof/SageBlocks.lean); the
  padded output features are sliced away and the kept ones read the unpadded weights (Proof/SageBridge.lean). The gather
  and the scatter-add are the same terms of the arguments in both programs and are never opened. The precondition is
  not used by the value claim.

  The three frame claims are the generated frames (the reference's is its generated run with the result dropped); no
  operation was rewritten by the idealization, so there is nothing to preserve.
-/
import proofs.«116263_j6373731468068_2_alg».proof.Defs
import proofs.«116263_j6373731468068_2_alg».proof.Proof.Gen.Kernel
import proofs.«116263_j6373731468068_2_alg».proof.Proof.Gen.Kernel.Skeleton
import proofs.«116263_j6373731468068_2_alg».proof.Proof.Gen.Kernel.Launch
import proofs.«116263_j6373731468068_2_alg».proof.Proof.Gen.Kernel.Points
import proofs.«116263_j6373731468068_2_alg».proof.Proof.Gen.Kernel.Frame
import proofs.«116263_j6373731468068_2_alg».proof.Proof.Gen.KernelIdeal
import proofs.«116263_j6373731468068_2_alg».proof.Proof.Gen.KernelIdeal.Skeleton
import proofs.«116263_j6373731468068_2_alg».proof.Proof.Gen.KernelIdeal.Launch
import proofs.«116263_j6373731468068_2_alg».proof.Proof.Gen.KernelIdeal.Points
import proofs.«116263_j6373731468068_2_alg».proof.Proof.Gen.KernelIdeal.Frame
import proofs.«116263_j6373731468068_2_alg».proof.Proof.Gen.ReferenceIdeal
import proofs.«116263_j6373731468068_2_alg».proof.Proof.Gen.ReferenceIdeal.Run
import proofs.«116263_j6373731468068_2_alg».proof.Proof.Gen.ReferenceIdeal.Read
import proofs.«116263_j6373731468068_2_alg».proof.Proof.Gen.Pre_finite_inputs
import proofs.«116263_j6373731468068_2_alg».proof.Proof.SageBridge
import Idealize.ShloMosaic.Adequacy
import Idealize.ShloMosaic.Init

noncomputable section

namespace Cert.Proof

open Idealize.ShloMosaic Idealize.ShloMosaic.TcCoe Idealize.SL.Sem

/-- The word-level program runs to the end without a fault and leaves its arguments as launched. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- So does the idealized reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run to the end, and the result arrays are equal
    entry by entry: both end holding the reference's last stage of the launched arguments. -/
theorem algebraic : Cert.algebraic_KernelIdeal_ReferenceIdeal := by
  intro m ρ m' ρ' _ hagree
  refine ⟨fun c => Cert.ReferenceIdeal.Read.val_main_v56 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Bridge.kernel_value m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v56_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
